-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8x5632x1024 : Shape := ⟨3, ![8, 5632, 1024]⟩
abbrev S8x1024x2816 : Shape := ⟨3, ![8, 1024, 2816]⟩
abbrev S8 : Shape := ⟨1, ![8]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8x5632x1024 : S_.BroadcastsInDim S8x5632x1024 (![] : Fin 0 → Fin S8x5632x1024.rank)
  reducesTo_S8x5632x1024_S_d0_1_2 : S8x5632x1024.ReducesTo [0, 1, 2] S_
  bcast_S_S8x1024x2816 : S_.BroadcastsInDim S8x1024x2816 (![] : Fin 0 → Fin S8x1024x2816.rank)
  reducesTo_S8x1024x2816_S_d0_1_2 : S8x1024x2816.ReducesTo [0, 1, 2] S_

variable [Facts]

def fn {F : FTy → Type} [FloatOps F] (main_arg0 : FVec F S8192x1024 .f32) (main_arg1 : FVec F S8x5632x1024 .f32) (main_arg2 : FVec F S8x1024x2816 .f32) (main_arg3 : IVec S8 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8x5632x1024 .f32 := Host.absf main_arg1
  let main_cst_0 : FVec F S_ .f32 := constant S_ .f32 0x7F800000#32
  let main_v5 : FVec F S8x5632x1024 .f32 := broadcastInDim S8x5632x1024 ![] bcast_S_S8x5632x1024 main_cst_0
  let main_v6 : IVec S8x5632x1024 1 := cmpf .olt main_v4 main_v5
  let main_c_1 : IVec S_ 1 := constantI S_ 1 1#1
  let main_v7 : IVec S_ 1 := (fun x v => Host.reduce IntOp.andi x v reducesTo_S8x5632x1024_S_d0_1_2 h_S_) main_v6 main_c_1
  let main_v8 : IVec S_ 1 := andi main_v3 main_v7
  let main_v9 : FVec F S8x1024x2816 .f32 := Host.absf main_arg2
  let main_cst_2 : FVec F S_ .f32 := constant S_ .f32 0x7F800000#32
  let main_v10 : FVec F S8x1024x2816 .f32 := broadcastInDim S8x1024x2816 ![] bcast_S_S8x1024x2816 main_cst_2
  let main_v11 : IVec S8x1024x2816 1 := cmpf .olt main_v9 main_v10
  let main_c_3 : IVec S_ 1 := constantI S_ 1 1#1
  let main_v12 : IVec S_ 1 := (fun x v => Host.reduce IntOp.andi x v reducesTo_S8x1024x2816_S_d0_1_2 h_S_) main_v11 main_c_3
  let main_v13 : IVec S_ 1 := andi main_v8 main_v12
  main_v13
-- ==== Kernel.lean ====
abbrev S8192x1024 : Shape := ⟨2, ![8192, 1024]⟩
abbrev S8x5632x1024 : Shape := ⟨3, ![8, 5632, 1024]⟩
abbrev S8x1024x2816 : Shape := ⟨3, ![8, 1024, 2816]⟩
abbrev S8 : Shape := ⟨1, ![8]⟩
abbrev S8x1024x1024 : Shape := ⟨3, ![8, 1024, 1024]⟩
abbrev S1x128x1024 : Shape := ⟨3, ![1, 128, 1024]⟩
abbrev S1x5632x1024 : Shape := ⟨3, ![1, 5632, 1024]⟩
abbrev S1x1024x2816 : Shape := ⟨3, ![1, 1024, 2816]⟩
abbrev S2816x1024 : Shape := ⟨2, ![2816, 1024]⟩
abbrev S1024x2816 : Shape := ⟨2, ![1024, 2816]⟩
abbrev S1x2816x1024 : Shape := ⟨3, ![1, 2816, 1024]⟩
abbrev S128x1024 : Shape := ⟨2, ![128, 1024]⟩
abbrev S128x2816 : Shape := ⟨2, ![128, 2816]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8x5632x1024, .f32⟩
  | .hbm, ⟨2, _⟩ => ⟨S8x1024x2816, .f32⟩
  | .hbm, ⟨3, _⟩ => ⟨S8, .i32⟩
  | .hbm, ⟨4, _⟩ => ⟨S8x1024x1024, .f32⟩
  | .hbm, ⟨5, _⟩ => ⟨S8x1024x1024, .f32⟩
  | .hbm, ⟨6, _⟩ => ⟨S8192x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x5632x1024, .f32⟩
  | .local _ .vmem, ⟨3, _⟩ => ⟨S1x1024x2816, .f32⟩
  | .local _ .vmem, ⟨4, _⟩ => ⟨S1x128x1024, .f32⟩
  | .local _ .vmem, ⟨5, _⟩ => ⟨S1x128x1024, .f32⟩
  | .local _ .vmem, ⟨6, _⟩ => ⟨S2816x1024, .bf16⟩
  | .local _ .vmem, ⟨7, _⟩ => ⟨S2816x1024, .bf16⟩
  | .local _ .vmem, ⟨8, _⟩ => ⟨S1024x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x5632x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8192x1024_S8x1024x1024 : S8192x1024.ShapeCasts S8x1024x1024
  inb_S1x5632x1024_S1x2816x1024_0_0_0 : ∀ a, (![0, 0, 0] : Fin 3 → Nat) a + S1x2816x1024.size a ≤ S1x5632x1024.size a
  h_S1x2816x1024 : 0 < S1x2816x1024.numel
  shapeCasts_S1x2816x1024_S2816x1024 : S1x2816x1024.ShapeCasts S2816x1024
  bitsLt_bf16_f32 : FTy.bits .bf16 < FTy.bits .f32
  inb_S2816x1024_S2816x1024_0_0 : ∀ a, (![0, 0] : Fin 2 → Nat) a + S2816x1024.size a ≤ S2816x1024.size a
  h_S2816x1024 : 0 < S2816x1024.numel
  shapeCasts_S2816x1024_S2816x1024 : S2816x1024.ShapeCasts S2816x1024
  packedbf16_S2816x1024_S2816x1024_0_0 : (Rect.unit (s := S2816x1024) ![0, 0] S2816x1024.size inb_S2816x1024_S2816x1024_0_0).PackedRows (EltTy.packing .bf16)
  inb_S1x5632x1024_S1x2816x1024_0_2816_0 : ∀ a, (![0, 2816, 0] : Fin 3 → Nat) a + S1x2816x1024.size a ≤ S1x5632x1024.size a
  inb_S1x1024x2816_S1x1024x2816_0_0_0 : ∀ a, (![0, 0, 0] : Fin 3 → Nat) a + S1x1024x2816.size a ≤ S1x1024x2816.size a
  h_S1x1024x2816 : 0 < S1x1024x2816.numel
  shapeCasts_S1x1024x2816_S1024x2816 : S1x1024x2816.ShapeCasts S1024x2816
  inb_S1024x2816_S1024x2816_0_0 : ∀ a, (![0, 0] : Fin 2 → Nat) a + S1024x2816.size a ≤ S1024x2816.size a
  h_S1024x2816 : 0 < S1024x2816.numel
  shapeCasts_S1024x2816_S1024x2816 : S1024x2816.ShapeCasts S1024x2816
  packedbf16_S1024x2816_S1024x2816_0_0 : (Rect.unit (s := S1024x2816) ![0, 0] S1024x2816.size inb_S1024x2816_S1024x2816_0_0).PackedRows (EltTy.packing .bf16)
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  shapeCasts_S128x1024_S1x128x1024 : S128x1024.ShapeCasts S1x128x1024
  shapeCasts_S8x1024x1024_S8192x1024 : S8x1024x1024.ShapeCasts S8192x1024
  dot_S128x1024_S2816x1024_S128x2816_1_1_0_0_n_n_wf : DotDims.WF S128x1024 S2816x1024 S128x2816 [1] [1] [0] [0] [] []
  dot_S128x2816_S1024x2816_S128x1024_1_1_0_0_n_n_wf : DotDims.WF S128x2816 S1024x2816 S128x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S8x1024x1024.size a
  hwx0_0 : ∀ i : grid0.Coords, EltTy.bits .f32 = 32 ∨ (Rect.block (s := S8x1024x1024) S1x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x5632x1024.size a ≤ S8x5632x1024.size a
  hwx0_1 : ∀ i : grid0.Coords, EltTy.bits .f32 = 32 ∨ (Rect.block (s := S8x5632x1024) S1x5632x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024x2816.size a ≤ S8x1024x2816.size a
  hwx0_2 : ∀ i : grid0.Coords, EltTy.bits .f32 = 32 ∨ (Rect.block (s := S8x1024x2816) S1x1024x2816.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1024.size a ≤ S8x1024x1024.size a
  hwx0_3 : ∀ i : grid0.Coords, EltTy.bits .f32 = 32 ∨ (Rect.block (s := S8x1024x1024) S1x128x1024.size (cc0_transform_3 i) (hinb0_3 i)).WholeWords (EltTy.packing .f32)

variable [Facts₀]

def dot_S128x1024_S2816x1024_S128x2816_1_1_0_0_n_n : DotDims S128x1024 S2816x1024 S128x2816 where
  lhsContracting := [1]
  rhsContracting := [1]
  lhsNonContracting := [0]
  rhsNonContracting := [0]
  lhsBatch := []
  rhsBatch := []
  wf := dot_S128x1024_S2816x1024_S128x2816_1_1_0_0_n_n_wf
def dot_S128x2816_S1024x2816_S128x1024_1_1_0_0_n_n : DotDims S128x2816 S1024x2816 S128x1024 where
  lhsContracting := [1]
  rhsContracting := [1]
  lhsNonContracting := [0]
  rhsNonContracting := [0]
  lhsBatch := []
  rhsBatch := []
  wf := dot_S128x2816_S1024x2816_S128x1024_1_1_0_0_n_n_wf

abbrev win0_0 : Pipeline.Window sig grid0 :=
  Pipeline.Window.ofSpec (Memref.whole main_v0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x5632x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x2816.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8x5632x1024 : Shape := ⟨3, ![8, 5632, 1024]⟩
abbrev S8x1024x2816 : Shape := ⟨3, ![8, 1024, 2816]⟩
abbrev S8 : Shape := ⟨1, ![8]⟩
abbrev S8x1024x1024 : Shape := ⟨3, ![8, 1024, 1024]⟩
abbrev S8x1024x5632 : Shape := ⟨3, ![8, 1024, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x5632x1024, .f32⟩
  | .hbm, ⟨2, _⟩ => ⟨S8x1024x2816, .f32⟩
  | .hbm, ⟨3, _⟩ => ⟨S8, .i32⟩
  | .hbm, ⟨4, _⟩ => ⟨S8x1024x1024, .f32⟩
  | .hbm, ⟨5, _⟩ => ⟨S8x1024x5632, .f32⟩
  | .hbm, ⟨6, _⟩ => ⟨S8x1024x2816, .f32⟩
  | .hbm, ⟨7, _⟩ => ⟨S8x1024x2816, .f32⟩
  | .hbm, ⟨8, _⟩ => ⟨S8x1024x2816, .f32⟩
  | .hbm, ⟨9, _⟩ => ⟨S8x1024x2816, .f32⟩
  | .hbm, ⟨10, _⟩ => ⟨S_, .f32⟩
  | .hbm, ⟨11, _⟩ => ⟨S8x1024x2816, .f32⟩
  | .hbm, ⟨12, _⟩ => ⟨S8x1024x2816, .f32⟩
  | .hbm, ⟨13, _⟩ => ⟨S_, .f32⟩
  | .hbm, ⟨14, _⟩ => ⟨S8x1024x2816, .f32⟩
  | .hbm, ⟨15, _⟩ => ⟨S8x1024x2816, .f32⟩
  | .hbm, ⟨16, _⟩ => ⟨S8x1024x2816, .f32⟩
  | .hbm, ⟨17, _⟩ => ⟨S8x1024x2816, .f32⟩
  | .hbm, ⟨18, _⟩ => ⟨S8x1024x1024, .f32⟩
  | .hbm, ⟨19, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]

class Facts₀ : Prop where
  shapeCasts_S8192x1024_S8x1024x1024 : S8192x1024.ShapeCasts S8x1024x1024
  slices_S8x1024x5632_S8x1024x2816_0_0_0 : S8x1024x5632.Slices ![0, 0, 0] S8x1024x2816
  slices_S8x1024x5632_S8x1024x2816_0_0_2816 : S8x1024x5632.Slices ![0, 0, 2816] S8x1024x2816
  bcast_S_S8x1024x2816 : S_.BroadcastsInDim S8x1024x2816 (![] : Fin 0 → Fin S8x1024x2816.rank)
  shapeCasts_S8x1024x1024_S8192x1024 : S8x1024x1024.ShapeCasts S8192x1024
  dot_S8x1024x1024_S8x5632x1024_S8x1024x5632_2_2_1_1_0_0_wf : DotDims.WF S8x1024x1024 S8x5632x1024 S8x1024x5632 [2] [2] [1] [1] [0] [0]
  dot_S8x1024x2816_S8x1024x2816_S8x1024x1024_2_2_1_1_0_0_wf : DotDims.WF S8x1024x2816 S8x1024x2816 S8x1024x1024 [2] [2] [1] [1] [0] [0]

variable [Facts₀]

def dot_S8x1024x1024_S8x5632x1024_S8x1024x5632_2_2_1_1_0_0 : DotDims S8x1024x1024 S8x5632x1024 S8x1024x5632 where
  lhsContracting := [2]
  rhsContracting := [2]
  lhsNonContracting := [1]
  rhsNonContracting := [1]
  lhsBatch := [0]
  rhsBatch := [0]
  wf := dot_S8x1024x1024_S8x5632x1024_S8x1024x5632_2_2_1_1_0_0_wf
def dot_S8x1024x2816_S8x1024x2816_S8x1024x1024_2_2_1_1_0_0 : DotDims S8x1024x2816 S8x1024x2816 S8x1024x1024 where
  lhsContracting := [2]
  rhsContracting := [2]
  lhsNonContracting := [1]
  rhsNonContracting := [1]
  lhsBatch := [0]
  rhsBatch := [0]
  wf := dot_S8x1024x2816_S8x1024x2816_S8x1024x1024_2_2_1_1_0_0_wf

class Facts : Prop extends Facts₀ where

variable [Facts]
-- ==== Proof.Spec.lean ====
/-
  The grouped SwiGLU feed-forward network as ONE function of its three arrays, on the extended reals.

  Tokens are laid out by expert: `X e r k` is coordinate `k` of token `r` of expert `e` (8 experts, 1024 tokens each,
  1024 hidden coordinates). The first weight `W1 e q k` packs, for each expert, the 2816 gate rows (rows 0 … 2815) above
  the 2816 up rows (rows 2816 … 5631); the second weight is `W2 e c n`. With
      proj e r q   = ∑ₖ X e r k · W1 e q k                       (one row of the first projection)
      act e r n = proj(gate n) · logistic(proj(gate n)) · proj(up n)   (silu(gate) · up)
      out e r c    = ∑ₙ act e r n · W2 e c n
  the network's result at token `r` of expert `e`, coordinate `c`, is `out e r c`. Both programs compute exactly these
  sums (a sum over a finite index set in a commutative monoid does not depend on its order or blocking), so no law
  beyond that is needed and the inputs' finiteness is never used.
-/
import Idealize.ShloMosaic.PureOps.Ideal
import Idealize.ShloMosaic.Lib.ValueIdx

noncomputable section

open scoped BigOperators
open Idealize.ShloMosaic Idealize.ShloMosaic.ValueIdx

namespace Cert.Swiglu

/-- Gate row `n` of the packed first weight. -/
def gateRow (n : Fin 2816) : Fin 5632 := ⟨n.val, by have := n.isLt; omega⟩
/-- Up row `n` of the packed first weight: 2816 rows further down. -/
def upRow (n : Fin 2816) : Fin 5632 := ⟨2816 + n.val, by have := n.isLt; omega⟩

variable (X : (⟨3, ![8, 1024, 1024]⟩ : Shape).Idx → EReal) (W1 : (⟨3, ![8, 5632, 1024]⟩ : Shape).Idx → EReal)
  (W2 : (⟨3, ![8, 1024, 2816]⟩ : Shape).Idx → EReal)

/-- Row `q` of expert `e`'s first projection of token `r`. -/
def proj (e : Fin 8) (r : Fin 1024) (q : Fin 5632) : EReal := ∑ k : Fin 1024, X (ix3 e r k) * W1 (ix3 e q k)

/-- The activated hidden value: silu of the gate row times the up row. -/
def act (e : Fin 8) (r : Fin 1024) (n : Fin 2816) : EReal :=
  proj X W1 e r (gateRow n) * Ideal.logistic (proj X W1 e r (gateRow n)) * proj X W1 e r (upRow n)

/-- The second projection. -/
def out (e : Fin 8) (r : Fin 1024) (c : Fin 1024) : EReal := ∑ n : Fin 2816, act X W1 e r n * W2 (ix3 e c n)

/-- The whole result, by expert, token and coordinate. -/
def G : (⟨3, ![8, 1024, 1024]⟩ : Shape).Idx → EReal := fun i => out X W1 W2 (i 0) (i 1) (i 2)

theorem G_ix3 (e : Fin 8) (r : Fin 1024) (c : Fin 1024) : G X W1 W2 (ix3 e r c) = out X W1 W2 e r c := rfl

end Cert.Swiglu

end
-- ==== Proof.RefSide.lean ====
/-
  The reference, read index by index: its second `dot_general` (the array before the final reshape) is the
  grouped SwiGLU function `Swiglu.G` of the reshaped tokens and the two weights.

  Row `q` of the first `dot_general` is `Swiglu.proj`; the two slices pick the gate rows (`q = n`) and the up
  rows (`q = 2816 + n`); the outlined `silu` is `g · (1 / (1 + exp (-g)))`, which on the extended reals is
  `g · logistic g` by the definition of `logistic`; the second `dot_general` sums the products with `W2 e c n` over `n`.
-/
import proofs.«142687_j87385404605037_2_alg».proof.Proof.Gen.ReferenceIdeal.Read
import proofs.«142687_j87385404605037_2_alg».proof.Proof.Spec
import Idealize.ShloMosaic.Lib.IdealHost

noncomputable section

open scoped BigOperators
open Idealize.ShloMosaic Idealize.ShloMosaic.ValueIdx

namespace Cert.ReferenceIdeal.RefSide

open Cert.ReferenceIdeal Cert.ReferenceIdeal.Read Cert.Swiglu

variable (x0 : (⟨S8192x1024, .f32⟩ : BufTy).Contents (Elt Ideal)) (x1 : (⟨S8x5632x1024, .f32⟩ : BufTy).Contents (Elt Ideal))
  (x2 : (⟨S8x1024x2816, .f32⟩ : BufTy).Contents (Elt Ideal))

/-- One row of the first `dot_general`: the sum over the hidden coordinate. -/
theorem v1_apply (e : Fin 8) (r : Fin 1024) (q : Fin 5632) :
    val_main_v1 (F := Ideal) x0 x1 (ix3 e r q) = proj (val_main_v0 (F := Ideal) x0) x1 e r q := by
  rw [val_main_v1_apply]
  unfold proj
  refine Finset.sum_congr rfl fun k _ => ?_
  have hl : lidx_main_v1 (ix3 e r q) k = ix3 e r k :=
    funext fun a => Fin.ext (by match a with | ⟨0, _⟩ => rfl | ⟨1, _⟩ => rfl | ⟨2, _⟩ => rfl)
  have hr : ridx_main_v1 (ix3 e r q) k = ix3 e q k :=
    funext fun a => Fin.ext (by match a with | ⟨0, _⟩ => rfl | ⟨1, _⟩ => rfl | ⟨2, _⟩ => rfl)
  rw [hl, hr]

/-- The first slice reads the gate rows. -/
theorem v2_apply (e : Fin 8) (r : Fin 1024) (n : Fin 2816) :
    val_main_v2 (F := Ideal) x0 x1 (ix3 e r n) = proj (val_main_v0 (F := Ideal) x0) x1 e r (gateRow n) := by
  rw [val_main_v2_apply]
  have h : idx_main_v2 (ix3 e r n) = ix3 e r (gateRow n) :=
    funext fun a => Fin.ext (by match a with | ⟨0, _⟩ => rfl | ⟨1, _⟩ => rfl | ⟨2, _⟩ => rfl)
  rw [h, v1_apply]

/-- The second slice reads the up rows. -/
theorem v3_apply (e : Fin 8) (r : Fin 1024) (n : Fin 2816) :
    val_main_v3 (F := Ideal) x0 x1 (ix3 e r n) = proj (val_main_v0 (F := Ideal) x0) x1 e r (upRow n) := by
  rw [val_main_v3_apply]
  have h : idx_main_v3 (ix3 e r n) = ix3 e r (upRow n) :=
    funext fun a => Fin.ext (by match a with | ⟨0, _⟩ => rfl | ⟨1, _⟩ => rfl | ⟨2, _⟩ => rfl)
  rw [h, v1_apply]

/-- silu(gate) · up, as the reference spells it, is `Swiglu.act`. -/
theorem v5_apply (e : Fin 8) (r : Fin 1024) (n : Fin 2816) :
    val_main_v5 (F := Ideal) x0 x1 (ix3 e r n) = act (val_main_v0 (F := Ideal) x0) x1 e r n := by
  rw [val_main_v5_apply, val_main_v4_apply, val_main_call0_v5_apply, val_main_call0_v4_apply, val_main_call0_cst_0_apply,
    val_main_call0_v3_apply, val_main_call0_v2_apply, val_main_call0_cst_apply, val_main_call0_v1_apply,
    val_main_call0_v0_apply, v2_apply, v3_apply]
  unfold act Ideal.logistic
  simp only [Ideal.mulf_def, Ideal.hostDivf_def, Ideal.addf_def, Ideal.hostUnary_exp_def, Ideal.hostNegf_def, Ideal.negf_def,
    Ideal.ofBits_def, Ideal.ofBits_one_f32]

/-- The array before the final reshape is the grouped SwiGLU function of the reshaped tokens and the weights. -/
theorem v6_eq : val_main_v6 (F := Ideal) x0 x1 x2 = G (val_main_v0 (F := Ideal) x0) x1 x2 := by
  funext i
  obtain ⟨e, r, c, rfl⟩ : ∃ (e : Fin 8) (r : Fin 1024) (c : Fin 1024), i = ix3 e r c := ⟨i 0, i 1, i 2, eq_ix3 i⟩
  rw [val_main_v6_apply, G_ix3]
  unfold out
  refine Finset.sum_congr rfl fun n _ => ?_
  have hl : lidx_main_v6 (ix3 e r c) n = ix3 e r n :=
    funext fun a => Fin.ext (by match a with | ⟨0, _⟩ => rfl | ⟨1, _⟩ => rfl | ⟨2, _⟩ => rfl)
  have hr : ridx_main_v6 (ix3 e r c) n = ix3 e c n :=
    funext fun a => Fin.ext (by match a with | ⟨0, _⟩ => rfl | ⟨1, _⟩ => rfl | ⟨2, _⟩ => rfl)
  rw [hl, hr, v5_apply]

end Cert.ReferenceIdeal.RefSide

end
-- ==== Proof.Pieces.lean ====
/-
  What one run of the kernel body leaves behind, as values (for any float instance).

  At the first token tile of an expert (`mi = 0`) the body first fills its three scratch buffers with the expert's
  weights — the gate rows and the up rows of the first weight's block, and the second weight's block, each rounded to
  bf16 — and then computes the tile's output from those freshly stored values. At every other tile it computes the
  same output expression from whatever the scratch buffers already hold and leaves them untouched. So in both cases
  the output tile is the ONE payload `k0_pay4` of the token tile and of three weight blocks; only where the weight
  blocks come from differs.
-/
import proofs.«142687_j87385404605037_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- First tile of an expert: the gate scratch ends at the bf16 rounding of the gate rows of the first weight's block. -/
theorem gate_first (c : Dev nD) (i : grid0.Coords) (arg2 : Memref sig .tc .vmem S1x128x1024 .f32) (harg2 : arg2.IsWhole) (arg3 : Memref sig .tc .vmem S1x5632x1024 .f32) (harg3 : arg3.IsWhole) (arg4 : Memref sig .tc .vmem S1x1024x2816 .f32) (harg4 : arg4.IsWhole) (arg5 : Memref sig .tc .vmem S1x128x1024 .f32) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S1024x2816 .bf16) (harg8 : arg8.IsWhole) (hc0 : cond0_0 i) (x0 : Vec F S1x128x1024 .f32) (x1 : Vec F S1x5632x1024 .f32) (x2 : Vec F S1x1024x2816 .f32) :
    sout0_A_0 c i arg2 harg2 arg3 harg3 arg4 harg4 arg5 harg5 arg6 harg6 arg7 harg7 arg8 harg8 hc0 x0 x1 x2 = k0_pay1 (View.ld x1 (Rect.unit ![0, 0, 0] S1x2816x1024.size inb_S1x5632x1024_S1x2816x1024_0_0_0)) := by
  unfold sout0_A_0
  rw [View.read_writes_eq_canon _ _ _ (scover0_A_0 c i arg2 harg2 arg3 harg3 arg4 harg4 arg5 harg5 arg6 harg6 arg7 harg7 arg8 harg8 hc0 x0 x1 x2)]
  unfold kernelRun0_A
  dsimp only
  sl_unfold_words
  rw [View.canon_unit_zero hz2]
  simp only [View.readAt_eq_ld, harg3.read_unread]

/-- First tile of an expert: the up scratch ends at the bf16 rounding of the up rows. -/
theorem up_first (c : Dev nD) (i : grid0.Coords) (arg2 : Memref sig .tc .vmem S1x128x1024 .f32) (harg2 : arg2.IsWhole) (arg3 : Memref sig .tc .vmem S1x5632x1024 .f32) (harg3 : arg3.IsWhole) (arg4 : Memref sig .tc .vmem S1x1024x2816 .f32) (harg4 : arg4.IsWhole) (arg5 : Memref sig .tc .vmem S1x128x1024 .f32) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S1024x2816 .bf16) (harg8 : arg8.IsWhole) (hc0 : cond0_0 i) (x0 : Vec F S1x128x1024 .f32) (x1 : Vec F S1x5632x1024 .f32) (x2 : Vec F S1x1024x2816 .f32) :
    sout0_A_1 c i arg2 harg2 arg3 harg3 arg4 harg4 arg5 harg5 arg6 harg6 arg7 harg7 arg8 harg8 hc0 x0 x1 x2 = k0_pay2 (View.ld x1 (Rect.unit ![0, 2816, 0] S1x2816x1024.size inb_S1x5632x1024_S1x2816x1024_0_2816_0)) := by
  unfold sout0_A_1
  rw [View.read_writes_eq_canon _ _ _ (scover0_A_1 c i arg2 harg2 arg3 harg3 arg4 harg4 arg5 harg5 arg6 harg6 arg7 harg7 arg8 harg8 hc0 x0 x1 x2)]
  unfold kernelRun0_A
  dsimp only
  sl_unfold_words
  rw [View.canon_unit_zero hz2]
  simp only [View.readAt_eq_ld, harg3.read_unread]

/-- First tile of an expert: the third scratch ends at the bf16 rounding of the second weight's block. -/
theorem down_first (c : Dev nD) (i : grid0.Coords) (arg2 : Memref sig .tc .vmem S1x128x1024 .f32) (harg2 : arg2.IsWhole) (arg3 : Memref sig .tc .vmem S1x5632x1024 .f32) (harg3 : arg3.IsWhole) (arg4 : Memref sig .tc .vmem S1x1024x2816 .f32) (harg4 : arg4.IsWhole) (arg5 : Memref sig .tc .vmem S1x128x1024 .f32) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S1024x2816 .bf16) (harg8 : arg8.IsWhole) (hc0 : cond0_0 i) (x0 : Vec F S1x128x1024 .f32) (x1 : Vec F S1x5632x1024 .f32) (x2 : Vec F S1x1024x2816 .f32) :
    sout0_A_2 c i arg2 harg2 arg3 harg3 arg4 harg4 arg5 harg5 arg6 harg6 arg7 harg7 arg8 harg8 hc0 x0 x1 x2 = k0_pay3 x2 := by
  unfold sout0_A_2
  rw [View.read_writes_eq_canon _ _ _ (scover0_A_2 c i arg2 harg2 arg3 harg3 arg4 harg4 arg5 harg5 arg6 harg6 arg7 harg7 arg8 harg8 hc0 x0 x1 x2)]
  unfold kernelRun0_A
  dsimp only
  sl_unfold_words
  rw [View.canon_unit_zero hz2]
  simp only [View.readAt_eq_ld, harg4.read_unread, View.ld_unit_zero (S := S1x1024x2816) hz3]

/-- First tile of an expert: the output tile is the payload of the token tile and the three freshly stored blocks. -/
theorem tile_first (c : Dev nD) (i : grid0.Coords) (arg2 : Memref sig .tc .vmem S1x128x1024 .f32) (harg2 : arg2.IsWhole) (arg3 : Memref sig .tc .vmem S1x5632x1024 .f32) (harg3 : arg3.IsWhole) (arg4 : Memref sig .tc .vmem S1x1024x2816 .f32) (harg4 : arg4.IsWhole) (arg5 : Memref sig .tc .vmem S1x128x1024 .f32) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S1024x2816 .bf16) (harg8 : arg8.IsWhole) (hc0 : cond0_0 i) (x0 : Vec F S1x128x1024 .f32) (x1 : Vec F S1x5632x1024 .f32) (x2 : Vec F S1x1024x2816 .f32) :
    out0_A_3 c i arg2 harg2 arg3 harg3 arg4 harg4 arg5 harg5 arg6 harg6 arg7 harg7 arg8 harg8 hc0 x0 x1 x2 = k0_pay4 x0 (k0_pay1 (View.ld x1 (Rect.unit ![0, 0, 0] S1x2816x1024.size inb_S1x5632x1024_S1x2816x1024_0_0_0))) (k0_pay2 (View.ld x1 (Rect.unit ![0, 2816, 0] S1x2816x1024.size inb_S1x5632x1024_S1x2816x1024_0_2816_0))) (k0_pay3 x2) := by
  unfold out0_A_3
  rw [View.read_writes_eq_canon _ _ _ (cover0_A_3 c i arg2 harg2 arg3 harg3 arg4 harg4 arg5 harg5 arg6 harg6 arg7 harg7 arg8 harg8 hc0 x0 x1 x2)]
  unfold kernelRun0_A
  dsimp only
  sl_unfold_words
  rw [View.canon_unit_zero hz3]
  simp only [View.readAt_eq_ld, harg2.read_unread, harg3.read_unread, harg4.read_unread,
    View.ld_unit_zero (S := S1x128x1024) hz3, View.ld_unit_zero (S := S1x1024x2816) hz3]
  rw [View.readCov_unit_zero (S := S2816x1024) _ hz2, View.readCov_unit_zero (S := S2816x1024) _ hz2,
    View.readCov_unit_zero (S := S1024x2816) _ hz2]

/-- Any later tile: the same payload of the token tile and of what the scratch buffers hold. -/
theorem tile_later (c : Dev nD) (i : grid0.Coords) (arg2 : Memref sig .tc .vmem S1x128x1024 .f32) (harg2 : arg2.IsWhole) (arg3 : Memref sig .tc .vmem S1x5632x1024 .f32) (harg3 : arg3.IsWhole) (arg4 : Memref sig .tc .vmem S1x1024x2816 .f32) (harg4 : arg4.IsWhole) (arg5 : Memref sig .tc .vmem S1x128x1024 .f32) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S1024x2816 .bf16) (harg8 : arg8.IsWhole) (hc0 : ¬cond0_0 i) (x0 : Vec F S1x128x1024 .f32) (x1 : Vec F S1x5632x1024 .f32) (x2 : Vec F S1x1024x2816 .f32) (xs0 : Vec F S2816x1024 .bf16) (xs1 : Vec F S2816x1024 .bf16) (xs2 : Vec F S1024x2816 .bf16) :
    out0_B_3 c i arg2 harg2 arg3 harg3 arg4 harg4 arg5 harg5 arg6 harg6 arg7 harg7 arg8 harg8 hc0 x0 x1 x2 xs0 xs1 xs2 = k0_pay4 x0 xs0 xs1 xs2 := by
  unfold out0_B_3
  rw [View.read_writes_eq_canon _ _ _ (cover0_B_3 c i arg2 harg2 arg3 harg3 arg4 harg4 arg5 harg5 arg6 harg6 arg7 harg7 arg8 harg8 hc0 x0 x1 x2 xs0 xs1 xs2)]
  unfold kernelRun0_B
  dsimp only
  rw [View.canon_unit_zero hz3]
  simp only [View.readAt_eq_ld, harg2.read_unread, harg6.read_unread, harg7.read_unread, harg8.read_unread,
    View.ld_unit_zero (S := S1x128x1024) hz3, View.ld_unit_zero (S := S2816x1024) hz2, View.ld_unit_zero (S := S1024x2816) hz2]

end Cert.KernelIdeal.Pieces

end
-- ==== Proof.Payload.lean ====
/-
  The kernel body's arithmetic, read at one element on the extended reals.

  A format change is the identity there, a matrix-unit product into a zero accumulator is the plain sum over the
  contracted axis, and a leading unit axis added or dropped by a shape cast does not move an element. So the output
  tile's payload at row `r`, coordinate `c` is
      ∑ₙ (g n · logistic (g n) · u n) · wd c n      with   g n = ∑ₖ x r k · wg n k ,  u n = ∑ₖ x r k · wu n k
  of the token tile `x` and the three weight blocks `wg` (gate rows), `wu` (up rows), `wd` (second weight); and each
  scratch payload is its weight block with the unit axis dropped.
-/
import proofs.«142687_j87385404605037_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-! ## The two matrix products' operand indices -/

theorem lhs1_0 (j : S128x2816.Idx) (q : dot_S128x1024_S2816x1024_S128x2816_1_1_0_0_n_n.contr.Idx) : (dot_S128x1024_S2816x1024_S128x2816_1_1_0_0_n_n.lhsIdx j q 0).val = (j 0).val := by
  unfold DotDims.lhsIdx
  rw [dif_neg (show ¬(0 : Fin S128x1024.rank) ∈ dot_S128x1024_S2816x1024_S128x2816_1_1_0_0_n_n.lhsBatch by decide),
    dif_pos (show (0 : Fin S128x1024.rank) ∈ dot_S128x1024_S2816x1024_S128x2816_1_1_0_0_n_n.lhsNonContracting by decide)]
  rfl
theorem lhs1_1 (j : S128x2816.Idx) (q : dot_S128x1024_S2816x1024_S128x2816_1_1_0_0_n_n.contr.Idx) : (dot_S128x1024_S2816x1024_S128x2816_1_1_0_0_n_n.lhsIdx j q 1).val = (q ⟨0, by decide⟩).val :=
  dot_S128x1024_S2816x1024_S128x2816_1_1_0_0_n_n.lhsIdx_val_of_single rfl j q
theorem rhs1_0 (j : S128x2816.Idx) (q : dot_S128x1024_S2816x1024_S128x2816_1_1_0_0_n_n.contr.Idx) : (dot_S128x1024_S2816x1024_S128x2816_1_1_0_0_n_n.rhsIdx j q 0).val = (j 1).val := by
  unfold DotDims.rhsIdx
  rw [dif_neg (show ¬(0 : Fin S2816x1024.rank) ∈ dot_S128x1024_S2816x1024_S128x2816_1_1_0_0_n_n.rhsBatch by decide),
    dif_pos (show (0 : Fin S2816x1024.rank) ∈ dot_S128x1024_S2816x1024_S128x2816_1_1_0_0_n_n.rhsNonContracting by decide)]
  rfl
theorem rhs1_1 (j : S128x2816.Idx) (q : dot_S128x1024_S2816x1024_S128x2816_1_1_0_0_n_n.contr.Idx) : (dot_S128x1024_S2816x1024_S128x2816_1_1_0_0_n_n.rhsIdx j q 1).val = (q ⟨0, by decide⟩).val :=
  dot_S128x1024_S2816x1024_S128x2816_1_1_0_0_n_n.rhsIdx_val_of_single rfl j q

theorem lhs2_0 (j : S128x1024.Idx) (q : dot_S128x2816_S1024x2816_S128x1024_1_1_0_0_n_n.contr.Idx) : (dot_S128x2816_S1024x2816_S128x1024_1_1_0_0_n_n.lhsIdx j q 0).val = (j 0).val := by
  unfold DotDims.lhsIdx
  rw [dif_neg (show ¬(0 : Fin S128x2816.rank) ∈ dot_S128x2816_S1024x2816_S128x1024_1_1_0_0_n_n.lhsBatch by decide),
    dif_pos (show (0 : Fin S128x2816.rank) ∈ dot_S128x2816_S1024x2816_S128x1024_1_1_0_0_n_n.lhsNonContracting by decide)]
  rfl
theorem lhs2_1 (j : S128x1024.Idx) (q : dot_S128x2816_S1024x2816_S128x1024_1_1_0_0_n_n.contr.Idx) : (dot_S128x2816_S1024x2816_S128x1024_1_1_0_0_n_n.lhsIdx j q 1).val = (q ⟨0, by decide⟩).val :=
  dot_S128x2816_S1024x2816_S128x1024_1_1_0_0_n_n.lhsIdx_val_of_single rfl j q
theorem rhs2_0 (j : S128x1024.Idx) (q : dot_S128x2816_S1024x2816_S128x1024_1_1_0_0_n_n.contr.Idx) : (dot_S128x2816_S1024x2816_S128x1024_1_1_0_0_n_n.rhsIdx j q 0).val = (j 1).val := by
  unfold DotDims.rhsIdx
  rw [dif_neg (show ¬(0 : Fin S1024x2816.rank) ∈ dot_S128x2816_S1024x2816_S128x1024_1_1_0_0_n_n.rhsBatch by decide),
    dif_pos (show (0 : Fin S1024x2816.rank) ∈ dot_S128x2816_S1024x2816_S128x1024_1_1_0_0_n_n.rhsNonContracting by decide)]
  rfl
theorem rhs2_1 (j : S128x1024.Idx) (q : dot_S128x2816_S1024x2816_S128x1024_1_1_0_0_n_n.contr.Idx) : (dot_S128x2816_S1024x2816_S128x1024_1_1_0_0_n_n.rhsIdx j q 1).val = (q ⟨0, by decide⟩).val :=
  dot_S128x2816_S1024x2816_S128x1024_1_1_0_0_n_n.rhsIdx_val_of_single rfl j q

/-- The first projection's product (contracting the 1024 hidden coordinates of a token row with a weight row). -/
theorem mm1_apply (a : FVec Ideal S128x1024 .bf16) (w : FVec Ideal S2816x1024 .bf16) (r : Fin 128) (n : Fin 2816) :
    matmul (F := Ideal) dot_S128x1024_S2816x1024_S128x2816_1_1_0_0_n_n none a w (constant (F := Ideal) S128x2816 .f32 0x00000000#32) (ix2 r n)
      = ∑ k : Fin 1024, a (ix2 r k) * w (ix2 n k) := by
  refine (Ideal.matmul_constant_zero_apply dot_S128x1024_S2816x1024_S128x2816_1_1_0_0_n_n none a w (ix2 r n)).trans ?_
  rw [← Equiv.sum_comp (contrEquiv1 dot_S128x1024_S2816x1024_S128x2816_1_1_0_0_n_n 1024 rfl rfl).symm]
  refine Finset.sum_congr rfl fun k _ => ?_
  have hk := contrEquiv1_symm_val dot_S128x1024_S2816x1024_S128x2816_1_1_0_0_n_n 1024 rfl rfl k
  have el : dot_S128x1024_S2816x1024_S128x2816_1_1_0_0_n_n.lhsIdx (ix2 r n) ((contrEquiv1 dot_S128x1024_S2816x1024_S128x2816_1_1_0_0_n_n 1024 rfl rfl).symm k) = ix2 r k := funext fun b => Fin.ext (by
    match b with
    | ⟨0, _⟩ => exact lhs1_0 _ _
    | ⟨1, _⟩ => exact (lhs1_1 _ _).trans hk)
  have er : dot_S128x1024_S2816x1024_S128x2816_1_1_0_0_n_n.rhsIdx (ix2 r n) ((contrEquiv1 dot_S128x1024_S2816x1024_S128x2816_1_1_0_0_n_n 1024 rfl rfl).symm k) = ix2 n k := funext fun b => Fin.ext (by
    match b with
    | ⟨0, _⟩ => exact rhs1_0 _ _
    | ⟨1, _⟩ => exact (rhs1_1 _ _).trans hk)
  rw [el, er]

/-- The second projection's product (contracting the 2816 intermediate coordinates). -/
theorem mm2_apply (a : FVec Ideal S128x2816 .bf16) (w : FVec Ideal S1024x2816 .bf16) (r : Fin 128) (c : Fin 1024) :
    matmul (F := Ideal) dot_S128x2816_S1024x2816_S128x1024_1_1_0_0_n_n none a w (constant (F := Ideal) S128x1024 .f32 0x00000000#32) (ix2 r c)
      = ∑ n : Fin 2816, a (ix2 r n) * w (ix2 c n) := by
  refine (Ideal.matmul_constant_zero_apply dot_S128x2816_S1024x2816_S128x1024_1_1_0_0_n_n none a w (ix2 r c)).trans ?_
  rw [← Equiv.sum_comp (contrEquiv1 dot_S128x2816_S1024x2816_S128x1024_1_1_0_0_n_n 2816 rfl rfl).symm]
  refine Finset.sum_congr rfl fun n _ => ?_
  have hk := contrEquiv1_symm_val dot_S128x2816_S1024x2816_S128x1024_1_1_0_0_n_n 2816 rfl rfl n
  have el : dot_S128x2816_S1024x2816_S128x1024_1_1_0_0_n_n.lhsIdx (ix2 r c) ((contrEquiv1 dot_S128x2816_S1024x2816_S128x1024_1_1_0_0_n_n 2816 rfl rfl).symm n) = ix2 r n := funext fun b => Fin.ext (by
    match b with
    | ⟨0, _⟩ => exact lhs2_0 _ _
    | ⟨1, _⟩ => exact (lhs2_1 _ _).trans hk)
  have er : dot_S128x2816_S1024x2816_S128x1024_1_1_0_0_n_n.rhsIdx (ix2 r c) ((contrEquiv1 dot_S128x2816_S1024x2816_S128x1024_1_1_0_0_n_n 2816 rfl rfl).symm n) = ix2 c n := funext fun b => Fin.ext (by
    match b with
    | ⟨0, _⟩ => exact rhs2_0 _ _
    | ⟨1, _⟩ => exact (rhs2_1 _ _).trans hk)
  rw [el, er]

/-! ## The payloads at an element -/

/-- The gate scratch's payload: the block's element, the unit axis dropped. -/
theorem pay1_apply (v : Vec Ideal S1x2816x1024 .f32) (n : Fin 2816) (k : Fin 1024) :
    k0_pay1 (F := Ideal) v (ix2 n k) = v (ix3 (0 : Fin 1) n k) := by
  unfold k0_pay1
  refine (congrFun (shapeCast_self _ _) _).trans ?_
  exact shapeCast_1ab_ab_apply v _ n k

/-- The up scratch's payload, likewise. -/
theorem pay2_apply (v : Vec Ideal S1x2816x1024 .f32) (n : Fin 2816) (k : Fin 1024) :
    k0_pay2 (F := Ideal) v (ix2 n k) = v (ix3 (0 : Fin 1) n k) := by
  unfold k0_pay2
  refine (congrFun (shapeCast_self _ _) _).trans ?_
  exact shapeCast_1ab_ab_apply v _ n k

/-- The second weight's scratch payload, likewise. -/
theorem pay3_apply (v : Vec Ideal S1x1024x2816 .f32) (c : Fin 1024) (n : Fin 2816) :
    k0_pay3 (F := Ideal) v (ix2 c n) = v (ix3 (0 : Fin 1) c n) := by
  unfold k0_pay3
  refine (congrFun (shapeCast_self _ _) _).trans ?_
  exact shapeCast_1ab_ab_apply v _ c n

/-- One row of the first projection inside a tile. -/
def row (x : Vec Ideal S1x128x1024 .f32) (w : Vec Ideal S2816x1024 .bf16) (r : Fin 128) (n : Fin 2816) : EReal :=
  ∑ k : Fin 1024, x (ix3 (0 : Fin 1) r k) * w (ix2 n k)

/-- The output tile's payload at row `r`, coordinate `c`. -/
theorem pay4_apply (x : Vec Ideal S1x128x1024 .f32) (wg wu : Vec Ideal S2816x1024 .bf16) (wd : Vec Ideal S1024x2816 .bf16)
    (u : Fin 1) (r : Fin 128) (c : Fin 1024) :
    k0_pay4 (F := Ideal) x wg wu wd (ix3 u r c)
      = ∑ n : Fin 2816, (row x wg r n * Ideal.logistic (row x wg r n) * row x wu r n) * wd (ix2 c n) := by
  unfold k0_pay4
  refine (shapeCast_ab_1ab_apply _ _ u r c).trans ?_
  refine (mm2_apply _ _ r c).trans ?_
  refine Finset.sum_congr rfl fun n _ => ?_
  refine congrArg (· * wd (ix2 c n)) ?_
  show (matmul (F := Ideal) dot_S128x1024_S2816x1024_S128x2816_1_1_0_0_n_n none _ wg _ (ix2 r n) * Ideal.logistic (matmul (F := Ideal) dot_S128x1024_S2816x1024_S128x2816_1_1_0_0_n_n none _ wg _ (ix2 r n)))
      * matmul (F := Ideal) dot_S128x1024_S2816x1024_S128x2816_1_1_0_0_n_n none _ wu _ (ix2 r n) = _
  rw [mm1_apply, mm1_apply]
  unfold row
  have e : ∀ (w : Vec Ideal S2816x1024 .bf16), (∑ k : Fin 1024, (truncf .bf16 (shapeCast S128x1024 x shapeCasts_S1x128x1024_S128x1024) bitsLt_bf16_f32 : FVec Ideal S128x1024 .bf16) (ix2 r k) * w (ix2 n k))
      = ∑ k : Fin 1024, x (ix3 (0 : Fin 1) r k) * w (ix2 n k) := fun w =>
    Finset.sum_congr rfl fun k _ => congrArg (· * w (ix2 n k)) (shapeCast_1ab_ab_apply x _ r k)
  rw [e wg, e wu]

end Cert.KernelIdeal.Payload

end
-- ==== Proof.Blocks.lean ====
/-
  Where each window's block sits in its array, and what the region finds in the arrays.

  The grid has 8 × 8 points; point `t` works on expert `t / 8` and on token tile `t % 8` of that expert. The token
  window's block at `t` is rows `(t % 8) · 128 … + 127` of expert `t / 8`'s tokens; the two weight windows' blocks are
  expert `t / 8`'s whole weights (they do not move within an expert); the output window's block is the token
  window's. The token array the region reads is the reshape of the first argument that @main computes before the
  region; the weight arrays are the arguments themselves.
-/
import proofs.«142687_j87385404605037_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

theorem lt64 (t : Fin cfg0.N) : t.val < 64 := lt_of_lt_of_eq t.isLt (show cfg0.N = 64 from N_0)

/-- The expert point `t` works on. -/
def expertOf (t : Fin cfg0.N) : Fin 8 := ⟨t.val / 8, by have := lt64 t; omega⟩
/-- Row `r` of point `t`'s token tile, as a row of its expert's tokens. -/
def tokenOf (t : Fin cfg0.N) (r : Fin 128) : Fin 1024 := ⟨t.val % 8 * 128 + r.val, by have := r.isLt; omega⟩

/-- The printed index maps, decided once over the 64 points. -/
theorem idx_facts : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = 0 ∧ win0_1.index t (2 : Fin 3) = 0)
    ∧ (win0_2.index t (0 : Fin 3) = t.val / 8 ∧ win0_2.index t (1 : Fin 3) = 0 ∧ win0_2.index t (2 : Fin 3) = 0)
    ∧ (win0_3.index t (0 : Fin 3) = t.val / 8 ∧ win0_3.index t (1 : Fin 3) = t.val % 8 ∧ win0_3.index t (2 : Fin 3) = 0) :=
  (by decide +kernel : ∀ t : Fin grid0.N, _)

/-- The token tile at a point, element by element. -/
theorem tok_apply (c : Dev nD) (t : Fin cfg0.N) (u : Fin 1) (r : Fin 128) (k : Fin 1024) :
    (iblk m c 0 t : Vec F S1x128x1024 .f32) (ix3 u r k) = V m c main_v0 (ix3 (expertOf t) (tokenOf t r) k) := by
  obtain ⟨⟨e0, e1, e2⟩, -⟩ := idx_facts t
  show V m c main_v0 (((cfg0.win 0).blk t).view.emb (ix3 u r k)) = _
  refine congrArg (V m c main_v0) ?_
  funext a; apply Fin.ext
  match a with
  | ⟨0, _⟩ => show win0_0.index t (0 : Fin 3) * 1 + 1 * u.val = t.val / 8; omega
  | ⟨1, _⟩ => show win0_0.index t (1 : Fin 3) * 128 + 1 * r.val = t.val % 8 * 128 + r.val; omega
  | ⟨2, _⟩ => show win0_0.index t (2 : Fin 3) * 1024 + 1 * k.val = k.val; omega

/-- The first weight's block at a point: the expert's whole first weight. -/
theorem w1_apply (c : Dev nD) (t : Fin cfg0.N) (u : Fin 1) (q : Fin 5632) (k : Fin 1024) :
    (iblk m c 1 t : Vec F S1x5632x1024 .f32) (ix3 u q k) = V m c main_arg1 (ix3 (expertOf t) q k) := by
  obtain ⟨-, ⟨e0, e1, e2⟩, -⟩ := idx_facts t
  show V m c main_arg1 (((cfg0.win 1).blk t).view.emb (ix3 u q k)) = _
  refine congrArg (V m c main_arg1) ?_
  funext a; apply Fin.ext
  match a with
  | ⟨0, _⟩ => show win0_1.index t (0 : Fin 3) * 1 + 1 * u.val = t.val / 8; omega
  | ⟨1, _⟩ => show win0_1.index t (1 : Fin 3) * 5632 + 1 * q.val = q.val; omega
  | ⟨2, _⟩ => show win0_1.index t (2 : Fin 3) * 1024 + 1 * k.val = k.val; omega

/-- The second weight's block at a point: the expert's whole second weight. -/
theorem w2_apply (c : Dev nD) (t : Fin cfg0.N) (u : Fin 1) (cc : Fin 1024) (n : Fin 2816) :
    (iblk m c 2 t : Vec F S1x1024x2816 .f32) (ix3 u cc n) = V m c main_arg2 (ix3 (expertOf t) cc n) := by
  obtain ⟨-, -, ⟨e0, e1, e2⟩, -⟩ := idx_facts t
  show V m c main_arg2 (((cfg0.win 2).blk t).view.emb (ix3 u cc n)) = _
  refine congrArg (V m c main_arg2) ?_
  funext a; apply Fin.ext
  match a with
  | ⟨0, _⟩ => show win0_2.index t (0 : Fin 3) * 1 + 1 * u.val = t.val / 8; omega
  | ⟨1, _⟩ => show win0_2.index t (1 : Fin 3) * 1024 + 1 * cc.val = cc.val; omega
  | ⟨2, _⟩ => show win0_2.index t (2 : Fin 3) * 2816 + 1 * n.val = n.val; omega

/-- Where an element of the output window's block at a point sits in the result array. -/
theorem out_emb (t : Fin cfg0.N) (u : Fin 1) (r : Fin 128) (k : Fin 1024) :
    ((cfg0.win 3).blk t).view.emb (ix3 u r k) = ix3 (expertOf t) (tokenOf t r) k := by
  obtain ⟨-, -, -, ⟨e0, e1, e2⟩⟩ := idx_facts t
  funext a; apply Fin.ext
  match a with
  | ⟨0, _⟩ => show win0_3.index t (0 : Fin 3) * 1 + 1 * u.val = t.val / 8; omega
  | ⟨1, _⟩ => show win0_3.index t (1 : Fin 3) * 128 + 1 * r.val = t.val % 8 * 128 + r.val; omega
  | ⟨2, _⟩ => show win0_3.index t (2 : Fin 3) * 1024 + 1 * k.val = k.val; omega

/-- The token array the region finds is the first argument, reshaped by expert. -/
theorem V_tokens (c : Dev nD) :
    V m c main_v0 = shapeCast S8x1024x1024 (m ((c : Thread nD τ).loc main_arg0)) shapeCasts_S8192x1024_S8x1024x1024 := by
  show StableHlo.after hostOps0 (fun b => m (c, b)) (Proc.devRef .tc main_v0) = _
  after_results
  rfl

end Cert.KernelIdeal.Blocks

end
-- ==== Proof.Carried.lean ====
/-
  What the scratch buffers and the output tile hold after each grid point, on the extended reals.

  The three scratch buffers are filled at the first token tile of an expert and only read afterwards, and the weight
  windows do not move within an expert; so after EVERY point `n` they hold expert `n / 8`'s gate rows, up rows and
  second weight (induction on the point: a first tile stores them, any other tile keeps what the point before left,
  and `(n + 1) / 8 = n / 8` unless `n + 1` starts a new expert). Hence at every point the output tile is the one
  payload of that point's token tile and its expert's weights, which element by element is `Swiglu.out`.
-/
import proofs.«142687_j87385404605037_2_alg».proof.Proof.Pieces
import proofs.«142687_j87385404605037_2_alg».proof.Proof.Payload
import proofs.«142687_j87385404605037_2_alg».proof.Proof.Blocks
import proofs.«142687_j87385404605037_2_alg».proof.Proof.Spec

noncomputable section

open scoped BigOperators
open Idealize.ShloMosaic Idealize.ShloMosaic.TcCoe Idealize.SL.Sem Idealize.ShloMosaic.ValueIdx

namespace Cert.KernelIdeal.Carried

open Cert.KernelIdeal Cert.KernelIdeal.Gen Cert.KernelIdeal.Blocks Cert.KernelIdeal.Payload Cert.KernelIdeal.Pieces Cert.Swiglu

/-- Expert `e`'s gate rows, as the first scratch buffer holds them. -/
def gateOf (W1 : (⟨3, ![8, 5632, 1024]⟩ : Shape).Idx → EReal) (e : Fin 8) : Vec Ideal S2816x1024 .bf16 :=
  fun j => W1 (ix3 e (gateRow (j 0)) (j 1))
/-- Expert `e`'s up rows, as the second scratch buffer holds them. -/
def upOf (W1 : (⟨3, ![8, 5632, 1024]⟩ : Shape).Idx → EReal) (e : Fin 8) : Vec Ideal S2816x1024 .bf16 :=
  fun j => W1 (ix3 e (upRow (j 0)) (j 1))
/-- Expert `e`'s second weight, as the third scratch buffer holds it. -/
def downOf (W2 : (⟨3, ![8, 1024, 2816]⟩ : Shape).Idx → EReal) (e : Fin 8) : Vec Ideal S1024x2816 .bf16 :=
  fun j => W2 (ix3 e (j 0) (j 1))

/-! ## The scratch payloads of a weight block that is expert `e`'s -/

theorem gate_of_block (x1 : Vec Ideal S1x5632x1024 .f32) (W1 : (⟨3, ![8, 5632, 1024]⟩ : Shape).Idx → EReal) (e : Fin 8)
    (hx : ∀ (q : Fin 5632) (k : Fin 1024), x1 (ix3 (0 : Fin 1) q k) = W1 (ix3 e q k)) :
    k0_pay1 (F := Ideal) (View.ld x1 (Rect.unit ![0, 0, 0] S1x2816x1024.size inb_S1x5632x1024_S1x2816x1024_0_0_0)) = gateOf W1 e := by
  funext j
  obtain ⟨n, k, rfl⟩ : ∃ (n : Fin 2816) (k : Fin 1024), j = ix2 n k := ⟨j 0, j 1, eq_ix2 j⟩
  refine (pay1_apply _ n k).trans ?_
  refine (congrArg x1 ?_).trans (hx (gateRow n) k)
  funext a; apply Fin.ext
  match a with
  | ⟨0, _⟩ => show 0 + 1 * 0 = 0; rfl
  | ⟨1, _⟩ => show 0 + 1 * n.val = n.val; omega
  | ⟨2, _⟩ => show 0 + 1 * k.val = k.val; omega

theorem up_of_block (x1 : Vec Ideal S1x5632x1024 .f32) (W1 : (⟨3, ![8, 5632, 1024]⟩ : Shape).Idx → EReal) (e : Fin 8)
    (hx : ∀ (q : Fin 5632) (k : Fin 1024), x1 (ix3 (0 : Fin 1) q k) = W1 (ix3 e q k)) :
    k0_pay2 (F := Ideal) (View.ld x1 (Rect.unit ![0, 2816, 0] S1x2816x1024.size inb_S1x5632x1024_S1x2816x1024_0_2816_0)) = upOf W1 e := by
  funext j
  obtain ⟨n, k, rfl⟩ : ∃ (n : Fin 2816) (k : Fin 1024), j = ix2 n k := ⟨j 0, j 1, eq_ix2 j⟩
  refine (pay2_apply _ n k).trans ?_
  refine (congrArg x1 ?_).trans (hx (upRow n) k)
  funext a; apply Fin.ext
  match a with
  | ⟨0, _⟩ => show 0 + 1 * 0 = 0; rfl
  | ⟨1, _⟩ => show 2816 + 1 * n.val = 2816 + n.val; omega
  | ⟨2, _⟩ => show 0 + 1 * k.val = k.val; omega

theorem down_of_block (x2 : Vec Ideal S1x1024x2816 .f32) (W2 : (⟨3, ![8, 1024, 2816]⟩ : Shape).Idx → EReal) (e : Fin 8)
    (hx : ∀ (cc : Fin 1024) (n : Fin 2816), x2 (ix3 (0 : Fin 1) cc n) = W2 (ix3 e cc n)) :
    k0_pay3 (F := Ideal) x2 = downOf W2 e := by
  funext j
  obtain ⟨cc, n, rfl⟩ : ∃ (cc : Fin 1024) (n : Fin 2816), j = ix2 cc n := ⟨j 0, j 1, eq_ix2 j⟩
  exact (pay3_apply _ cc n).trans (hx cc n)

/-- The output payload of a token tile whose rows are rows `R r` of expert `e`'s tokens, over expert `e`'s weights. -/
theorem tile_general (x : Vec Ideal S1x128x1024 .f32) (X3 : (⟨3, ![8, 1024, 1024]⟩ : Shape).Idx → EReal)
    (W1 : (⟨3, ![8, 5632, 1024]⟩ : Shape).Idx → EReal) (W2 : (⟨3, ![8, 1024, 2816]⟩ : Shape).Idx → EReal) (e : Fin 8)
    (R : Fin 128 → Fin 1024) (hx : ∀ (r : Fin 128) (k : Fin 1024), x (ix3 (0 : Fin 1) r k) = X3 (ix3 e (R r) k))
    (u : Fin 1) (r : Fin 128) (cc : Fin 1024) :
    k0_pay4 (F := Ideal) x (gateOf W1 e) (upOf W1 e) (downOf W2 e) (ix3 u r cc) = out X3 W1 W2 e (R r) cc := by
  refine (pay4_apply x _ _ _ u r cc).trans ?_
  unfold out act
  refine Finset.sum_congr rfl fun n _ => ?_
  have hg : row x (gateOf W1 e) r n = proj X3 W1 e (R r) (gateRow n) :=
    Finset.sum_congr rfl fun k _ => congrArg (· * W1 (ix3 e (gateRow n) k)) (hx r k)
  have hu : row x (upOf W1 e) r n = proj X3 W1 e (R r) (upRow n) :=
    Finset.sum_congr rfl fun k _ => congrArg (· * W1 (ix3 e (upRow n) k)) (hx r k)
  rw [hg, hu]
  rfl

/-! ## After every point -/

variable (m : (ℓ : Loc nD τ sig) → Buf (Elt Ideal) ℓ)

/-- A first tile stores its expert's weights. -/
theorem scratch_first (c : Dev nD) (t : Fin cfg0.N) (h0 : t.val % 8 = 0) :
    (outsAt0 m c t.val t.isLt).2.1 = gateOf (V m c main_arg1) (expertOf t)
    ∧ (outsAt0 m c t.val t.isLt).2.2.1 = upOf (V m c main_arg1) (expertOf t)
    ∧ (outsAt0 m c t.val t.isLt).2.2.2 = downOf (V m c main_arg2) (expertOf t) := by
  rw [outsAt0_A m c t h0]
  dsimp only
  exact ⟨(gate_first (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t)).trans
      (gate_of_block (iblk m c 1 t) (V m c main_arg1) (expertOf t) (fun q k => w1_apply m c t 0 q k)),
    (up_first (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t)).trans
      (up_of_block (iblk m c 1 t) (V m c main_arg1) (expertOf t) (fun q k => w1_apply m c t 0 q k)),
    (down_first (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t)).trans
      (down_of_block (iblk m c 2 t) (V m c main_arg2) (expertOf t) (fun cc n => w2_apply m c t 0 cc n))⟩

/-- After every point the scratch buffers hold the point's expert's weights. -/
theorem scratch_at (c : Dev nD) : ∀ (n : ℕ) (hn : n < cfg0.N),
    (outsAt0 m c n hn).2.1 = gateOf (V m c main_arg1) (expertOf ⟨n, hn⟩)
    ∧ (outsAt0 m c n hn).2.2.1 = upOf (V m c main_arg1) (expertOf ⟨n, hn⟩)
    ∧ (outsAt0 m c n hn).2.2.2 = downOf (V m c main_arg2) (expertOf ⟨n, hn⟩)
  | 0, h => scratch_first m c ⟨0, h⟩ (Nat.zero_mod 8)
  | n + 1, h => by
    by_cases h0 : (n + 1) % 8 = 0
    · exact scratch_first m c ⟨n + 1, h⟩ h0
    · have ih := scratch_at c n (Nat.lt_of_succ_lt h)
      have he : expertOf ⟨n + 1, h⟩ = expertOf ⟨n, Nat.lt_of_succ_lt h⟩ := Fin.ext (by show (n + 1) / 8 = n / 8; omega)
      rw [he, show outsAt0 m c (n + 1) h = _ from outsAt0_B m c ⟨n + 1, h⟩ h0]
      dsimp only [sout0_B_0, sout0_B_1, sout0_B_2]
      exact ih

/-- The output tile of point `t`: the payload of its token tile and its expert's weights. -/
def tileOf (c : Dev nD) (t : Fin cfg0.N) : Vec Ideal S1x128x1024 .f32 :=
  k0_pay4 (F := Ideal) (iblk m c 0 t) (gateOf (V m c main_arg1) (expertOf t)) (upOf (V m c main_arg1) (expertOf t))
    (downOf (V m c main_arg2) (expertOf t))

theorem tile_value (c : Dev nD) (t : Fin cfg0.N) : (outsAt0 m c t.val t.isLt).1 = tileOf m c t := by
  by_cases h0 : t.val % 8 = 0
  · rw [outsAt0_A m c t h0]
    dsimp only
    refine (tile_first (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (iblk m c 0 t) (iblk m c 1 t) (iblk m c 2 t)).trans ?_
    unfold tileOf
    rw [gate_of_block (iblk m c 1 t) (V m c main_arg1) (expertOf t) (fun q k => w1_apply m c t 0 q k),
      up_of_block (iblk m c 1 t) (V m c main_arg1) (expertOf t) (fun q k => w1_apply m c t 0 q k),
      down_of_block (iblk m c 2 t) (V m c main_arg2) (expertOf t) (fun cc n => w2_apply m c t 0 cc n)]
  · have hpos : 0 < t.val := Nat.pos_of_ne_zero (fun hz => h0 (by rw [hz]))
    have hlt : t.val - 1 < cfg0.N := Nat.lt_of_le_of_lt (Nat.sub_le _ _) t.isLt
    have ih := scratch_at m c (t.val - 1) hlt
    have he : expertOf ⟨t.val - 1, hlt⟩ = expertOf t := Fin.ext (by show (t.val - 1) / 8 = t.val / 8; omega)
    rw [he] at ih
    rw [outsAt0_B m c t h0]
    dsimp only
    refine (tile_later (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (iblk m c 0 t) (iblk m c 1 t) (iblk m c 2 t) _ _ _).trans ?_
    unfold tileOf
    rw [ih.1, ih.2.1, ih.2.2]

/-- Element by element it is the grouped SwiGLU function at the point's expert and token rows. -/
theorem tile_apply (c : Dev nD) (t : Fin cfg0.N) (u : Fin 1) (r : Fin 128) (k : Fin 1024) :
    tileOf m c t (ix3 u r k)
      = out (V m c main_v0) (V m c main_arg1) (V m c main_arg2) (expertOf t) (tokenOf t r) k :=
  tile_general (iblk m c 0 t) (V m c main_v0) (V m c main_arg1) (V m c main_arg2) (expertOf t) (tokenOf t)
    (fun r k => tok_apply m c t 0 r k) u r k

end Cert.KernelIdeal.Carried

end
-- ==== Proof.Result.lean ====
/-
  The kernel's whole run, read: @main's result is the grouped SwiGLU function of its arguments.

  Every point writes its output tile back, and tile `t` is rows `(t % 8) · 128 …` of expert `t / 8`; the 64 tiles
  cover the [8, 1024, 1024] result array (row `r` of expert `e` is in tile `8 e + r / 128`), so after the region the
  array holds `Swiglu.G` of the reshaped tokens and the two weights. The one host operation after the region
  reshapes it to [8192, 1024].
-/
import proofs.«142687_j87385404605037_2_alg».proof.Proof.Carried

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Blocks Cert.KernelIdeal.Carried Cert.Swiglu

variable (m : (ℓ : Loc nD τ sig) → Buf (Elt Ideal) ℓ) (ρ : Dev nD → PrngReg)

/-- The result array of the region, as one function of what the region finds. -/
abbrev regionResult (c : Dev nD) : Buf (Elt Ideal) ((c : Thread nD τ).loc main_v1) :=
  G (V m c main_v0) (V m c main_arg1) (V m c main_arg2)

/-- What point `t` writes back is block `t` of that function. -/
theorem flushed_eq (c : Dev nD) (t : Fin cfg0.N) :
    (dats m 0 c).flushed 3 t = ((cfg0.win 3).blk t).view.read (Elt Ideal) (regionResult m c) := by
  show (cfg0.win 3).cut (grid0.coords t) ((dats m 0 c).after 3 t) = _
  rw [after0_3, tile_value]
  funext j
  obtain ⟨u, r, k, rfl⟩ : ∃ (u : Fin 1) (r : Fin 128) (k : Fin 1024), j = ix3 u r k := ⟨j 0, j 1, j 2, eq_ix3 j⟩
  show tileOf m c t (ix3 u r k) = G (V m c main_v0) (V m c main_arg1) (V m c main_arg2) (((cfg0.win 3).blk t).view.emb (ix3 u r k))
  rw [out_emb, G_ix3]
  exact tile_apply m c t u r k

/-- An index of the result array is in point `t`'s block iff each coordinate is in the block's range on its axis. -/
theorem mem_blk (t : Fin cfg0.N) (i : S8x1024x1024.Idx) :
    i ∈ ((cfg0.win 3).blk t).view.set ↔ ∀ a : Fin 3, win0_3.index t a * S1x128x1024.size a ≤ (i a).val ∧ (i a).val < win0_3.index t a * S1x128x1024.size a + S1x128x1024.size a := by
  show i ∈ ((View.whole main_v1).slice (win0_3.rect t)).set ↔ _
  rw [View.set_slice_whole, Rect.mem_set_unit]
  exact Iff.rfl

/-- The 64 tiles cover the result array. -/
theorem cover (i : S8x1024x1024.Idx) : ∃ t : Fin cfg0.N, (cfg0.win 3).flush t = true ∧ i ∈ ((cfg0.win 3).blk t).view.set := by
  have hi0 : (i 0).val < 8 := (i 0).isLt
  have hi1 : (i 1).val < 1024 := (i 1).isLt
  have hi2 : (i 2).val < 1024 := (i 2).isLt
  have hN : cfg0.N = 64 := N_0
  have ht : (i 0).val * 8 + (i 1).val / 128 < cfg0.N := by rw [hN]; omega
  refine ⟨⟨(i 0).val * 8 + (i 1).val / 128, ht⟩, flush0_3 _, ?_⟩
  rw [mem_blk]
  obtain ⟨-, -, -, ⟨e0, e1, e2⟩⟩ := idx_facts ⟨(i 0).val * 8 + (i 1).val / 128, ht⟩
  have e0' : win0_3.index ⟨(i 0).val * 8 + (i 1).val / 128, ht⟩ (0 : Fin 3) = ((i 0).val * 8 + (i 1).val / 128) / 8 := e0
  have e1' : win0_3.index ⟨(i 0).val * 8 + (i 1).val / 128, ht⟩ (1 : Fin 3) = ((i 0).val * 8 + (i 1).val / 128) % 8 := e1
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 128 ≤ (i 1).val ∧ (i 1).val < win0_3.index _ (1 : Fin 3) * 128 + 128; omega
  | ⟨2, _⟩ => show win0_3.index _ (2 : Fin 3) * 1024 ≤ (i 2).val ∧ (i 2).val < win0_3.index _ (2 : Fin 3) * 1024 + 1024; omega

/-- After the region the result array holds the grouped SwiGLU function of what the region found. -/
theorem final (c : Dev nD) : (dats m 0 c).arrAt 3 cfg0.N = regionResult m c :=
  (dats m 0 c).arrAt_eq_of_cover 3 (regionResult m c) (fun t _ => flushed_eq m c t) cover

/-- The same over @main's arguments. -/
theorem regionResult_eq (c : Dev nD) : regionResult m c
    = G (shapeCast S8x1024x1024 (m ((c : Thread nD τ).loc main_arg0)) shapeCasts_S8192x1024_S8x1024x1024)
        (m ((c : Thread nD τ).loc main_arg1)) (m ((c : Thread nD τ).loc main_arg2)) := by
  unfold regionResult
  rw [V_tokens m c, V_main_arg1 m c, V_main_arg2 m c]

/-- @main's result: the region's array, reshaped to [8192, 1024]. -/
theorem tail_eq (c : Dev nD) : Pipeline.afterTail₀ cfgs (dats m) 0 (V0 m) [hostOps1] c main_v2
    = shapeCast S8192x1024 (G (shapeCast S8x1024x1024 (m ((c : Thread nD τ).loc main_arg0)) shapeCasts_S8192x1024_S8x1024x1024)
        (m ((c : Thread nD τ).loc main_arg1)) (m ((c : Thread nD τ).loc main_arg2))) shapeCasts_S8x1024x1024_S8192x1024 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = G (shapeCast S8x1024x1024 (m ((c : Thread nD τ).loc main_arg0)) shapeCasts_S8192x1024_S8x1024x1024)
          (m ((c : Thread nD τ).loc main_arg1)) (m ((c : Thread nD τ).loc main_arg2)) :=
    ((Pipeline.withArrays_arr spec0 launch0.win.arr_inj c _ _ 3).trans (final m c)).trans (regionResult_eq m c)
  rw [e]
  rfl

/-- The run, read: @main's result at the reshaped grouped SwiGLU function of its arguments, the arguments unchanged. -/
theorem run : θ_run defs (onTc (τ := τ) (main (F := Ideal))) ⟨m, fun _ => 0, ρ⟩ fun r => ∀ c : Dev nD,
      r.2.mem ((c.tc : Thread nD τ).loc main_v2)
        = shapeCast S8192x1024 (G (shapeCast S8x1024x1024 (m ((c.tc : Thread nD τ).loc main_arg0)) shapeCasts_S8192x1024_S8x1024x1024)
            (m ((c.tc : Thread nD τ).loc main_arg1)) (m ((c.tc : Thread nD τ).loc main_arg2))) shapeCasts_S8x1024x1024_S8192x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Result

end
-- ==== Proof.lean ====
/-
  A grouped SwiGLU feed-forward network over 8 experts with equal contiguous token splits, as a pipelined kernel
  (grid 8 experts × 8 token tiles of 128 rows; the expert's weights are rounded to bf16 into scratch buffers at its
  first tile and reused for the other seven) against the plain reference (two batched products around
  `silu(gate) · up`).

  On the extended reals a change of float format is the identity and a matrix product is the plain sum over the
  contracted axis, so both programs compute, for token `r` of expert `e` and output coordinate `c`,
      ∑ₙ (g n · logistic (g n) · u n) · W2 e c n ,   g n = ∑ₖ X e r k · W1 e n k ,   u n = ∑ₖ X e r k · W1 e (2816 + n) k
  (`Swiglu.G`, Proof/Spec.lean): the reference by reading its operations one at a time (Proof/RefSide.lean; its
  `silu` spells `logistic` as `1 / (1 + exp (-g))`, which is its definition), the kernel by an induction over the
  grid points showing that the scratch buffers always hold the current expert's weights (Proof/Carried.lean), so
  that every output tile is the same payload of its token tile and its expert's weights (Proof/Pieces.lean,
  Proof/Payload.lean), and the 64 tiles cover the result (Proof/Result.lean). Both programs reshape the tokens
  [8192, 1024] → [8, 1024, 1024] before and the result back after, by the same two reshapes. The sums are literally
  the same sums, so no algebraic law is used and the inputs' finiteness is not needed.

  The three frames: the two kernels' are the generated frame certificates; the reference's is its generated run with
  the result dropped. The ideal pass rewrote nothing, so `preserves` is `True`.
-/
import proofs.«142687_j87385404605037_2_alg».proof.Defs
import proofs.«142687_j87385404605037_2_alg».proof.Proof.Gen.Kernel
import proofs.«142687_j87385404605037_2_alg».proof.Proof.Gen.Kernel.Skeleton
import proofs.«142687_j87385404605037_2_alg».proof.Proof.Gen.Kernel.Launch
import proofs.«142687_j87385404605037_2_alg».proof.Proof.Gen.Kernel.Points
import proofs.«142687_j87385404605037_2_alg».proof.Proof.Gen.Kernel.Frame
import proofs.«142687_j87385404605037_2_alg».proof.Proof.Gen.KernelIdeal
import proofs.«142687_j87385404605037_2_alg».proof.Proof.Gen.KernelIdeal.Skeleton
import proofs.«142687_j87385404605037_2_alg».proof.Proof.Gen.KernelIdeal.Launch
import proofs.«142687_j87385404605037_2_alg».proof.Proof.Gen.KernelIdeal.Points
import proofs.«142687_j87385404605037_2_alg».proof.Proof.Gen.KernelIdeal.Frame
import proofs.«142687_j87385404605037_2_alg».proof.Proof.Gen.ReferenceIdeal
import proofs.«142687_j87385404605037_2_alg».proof.Proof.Gen.Pre_finite_inputs
import proofs.«142687_j87385404605037_2_alg».proof.Proof.Gen.ReferenceIdeal.Run
import proofs.«142687_j87385404605037_2_alg».proof.Proof.Gen.ReferenceIdeal.Read
import proofs.«142687_j87385404605037_2_alg».proof.Proof.RefSide
import proofs.«142687_j87385404605037_2_alg».proof.Proof.Result
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reshape of `Swiglu.G` of the reshaped tokens and the two weights, of arguments that agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq]
  unfold Cert.ReferenceIdeal.Read.val_main_v7
  rw [Cert.ReferenceIdeal.RefSide.v6_eq]
  unfold Cert.ReferenceIdeal.Read.val_main_v0
  rw [(hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
